-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288 : Shape := ⟨2, ![64, 524288]⟩
abbrev S64x64 : Shape := ⟨2, ![64, 64]⟩
abbrev S_ : Shape := ⟨0, ![]⟩

class Facts : Prop where
  bcast_S_S64x524288 : S_.BroadcastsInDim S64x524288 (![] : Fin 0 → Fin S64x524288.rank)
  reducesTo_S64x524288_S_d0_1 : S64x524288.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S64x524288 .f32) (main_arg1 : FVec F S64x524288 .f32) (main_arg2 : FVec F S64x64 .f32) (main_arg3 : FVec F S64x64 .f32) : IVec S_ 1 :=
  let main_v0 : FVec F S64x524288 .f32 := Host.absf main_arg0
  let main_cst : FVec F S_ .f32 := constant S_ .f32 0x7F800000#32
  let main_v1 : FVec F S64x524288 .f32 := broadcastInDim S64x524288 ![] bcast_S_S64x524288 main_cst
  let main_v2 : IVec S64x524288 1 := cmpf .olt main_v0 main_v1
  let main_c : IVec S_ 1 := constantI S_ 1 1#1
  let main_v3 : IVec S_ 1 := (fun x v => Host.reduce IntOp.andi x v reducesTo_S64x524288_S_d0_1 h_S_) main_v2 main_c
  let main_v4 : FVec F S64x524288 .f32 := Host.absf main_arg1
  let main_cst_0 : FVec F S_ .f32 := constant S_ .f32 0x7F800000#32
  let main_v5 : FVec F S64x524288 .f32 := broadcastInDim S64x524288 ![] bcast_S_S64x524288 main_cst_0
  let main_v6 : IVec S64x524288 1 := cmpf .olt main_v4 main_v5
  let main_c_1 : IVec S_ 1 := constantI S_ 1 1#1
  let main_v7 : IVec S_ 1 := (fun x v => Host.reduce IntOp.andi x v reducesTo_S64x524288_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S64x524288 : Shape := ⟨2, ![64, 524288]⟩
abbrev S64x64 : Shape := ⟨2, ![64, 64]⟩
abbrev S64x16384 : Shape := ⟨2, ![64, 16384]⟩

abbrev nBuf : Space → Nat
  | .hbm => 7
  | .vmem => 8
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x64, .f32⟩
  | .hbm, ⟨3, _⟩ => ⟨S64x64, .f32⟩
  | .hbm, ⟨4, _⟩ => ⟨S64x64, .bf16⟩
  | .hbm, ⟨5, _⟩ => ⟨S64x64, .bf16⟩
  | .hbm, ⟨6, _⟩ => ⟨S64x524288, .f32⟩
  | .local _ .vmem, ⟨0, _⟩ => ⟨S64x64, .bf16⟩
  | .local _ .vmem, ⟨1, _⟩ => ⟨S64x64, .bf16⟩
  | .local _ .vmem, ⟨2, _⟩ => ⟨S64x16384, .f32⟩
  | .local _ .vmem, ⟨3, _⟩ => ⟨S64x16384, .f32⟩
  | .local _ .vmem, ⟨4, _⟩ => ⟨S64x16384, .f32⟩
  | .local _ .vmem, ⟨5, _⟩ => ⟨S64x16384, .f32⟩
  | .local _ .vmem, ⟨6, _⟩ => ⟨S64x16384, .f32⟩
  | .local _ .vmem, ⟨7, _⟩ => ⟨S64x16384, .f32⟩
  | _, _ => ⟨S64x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S64x16384_S64x16384_0_0 : ∀ a, (![0, 0] : Fin 2 → Nat) a + S64x16384.size a ≤ S64x16384.size a
  h_S64x16384 : 0 < S64x16384.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S64x64.size a
  hwx0_0 : ∀ i : grid0.Coords, EltTy.bits .bf16 = 32 ∨ (Rect.block (s := S64x64) S64x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S64x524288.size a
  hwx0_2 : ∀ i : grid0.Coords, EltTy.bits .f32 = 32 ∨ (Rect.block (s := S64x524288) S64x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16384.size a ≤ S64x524288.size a
  hwx0_3 : ∀ i : grid0.Coords, EltTy.bits .f32 = 32 ∨ (Rect.block (s := S64x524288) S64x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x16384.size a ≤ S64x524288.size a
  hwx0_4 : ∀ i : grid0.Coords, EltTy.bits .f32 = 32 ∨ (Rect.block (s := S64x524288) S64x16384.size (cc0_transform_4 i) (hinb0_4 i)).WholeWords (EltTy.packing .f32)

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_v0) S64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x524288 : Shape := ⟨2, ![64, 524288]⟩
abbrev S64x64 : Shape := ⟨2, ![64, 64]⟩

abbrev nBuf : Space → Nat
  | .hbm => 8
  | .vmem => 0
  | .smem => 0
  | _ => 0

abbrev bufTy : (tb : Table) → Fin (tcTables nBuf tb) → BufTy
  | .hbm, ⟨0, _⟩ => ⟨S64x524288, .f32⟩
  | .hbm, ⟨1, _⟩ => ⟨S64x524288, .f32⟩
  | .hbm, ⟨2, _⟩ => ⟨S64x64, .f32⟩
  | .hbm, ⟨3, _⟩ => ⟨S64x64, .f32⟩
  | .hbm, ⟨4, _⟩ => ⟨S64x524288, .f32⟩
  | .hbm, ⟨5, _⟩ => ⟨S64x524288, .f32⟩
  | .hbm, ⟨6, _⟩ => ⟨S64x524288, .f32⟩
  | .hbm, ⟨7, _⟩ => ⟨S64x524288, .f32⟩
  | _, _ => ⟨S64x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S64x64_S64x524288_S64x524288_1_0_0_1_n_n_wf : DotDims.WF S64x64 S64x524288 S64x524288 [1] [0] [0] [1] [] []

variable [Facts₀]

def dot_S64x64_S64x524288_S64x524288_1_0_0_1_n_n : DotDims S64x64 S64x524288 S64x524288 where
  lhsContracting := [1]
  rhsContracting := [0]
  lhsNonContracting := [0]
  rhsNonContracting := [1]
  lhsBatch := []
  rhsBatch := []
  wf := dot_S64x64_S64x524288_S64x524288_1_0_0_1_n_n_wf

class Facts : Prop extends Facts₀ where

variable [Facts]
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«120280_j34995393527975_2_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.TilePayload.lean ====
/-
  What the body stores, read at one entry of a tile.

  At a grid point the body holds a [64, 16384] tile of `h`, the same tile of `c`, and the two whole 64 × 64 mixing
  matrices.  It multiplies each matrix with its tile into a zero accumulator, adds the two products and applies
  `tanh`.  On the extended reals the narrowing of the tiles to a shorter float format changes nothing, a product
  into a zero accumulator is the bare sum over the contracted axis, and the same-shape re-layout of a matrix is the
  identity; so entry (p, q) of the stored tile is

      tanh ( ∑ₖ Hb(p, k) · ht(k, q)  +  ∑ₖ Cb(p, k) · ct(k, q) ),      k over the 64 agents.
-/
import proofs.«120280_j34995393527975_2_alg».proof.Proof.Gen.KernelIdeal.Skeleton
import proofs.«120280_j34995393527975_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- One of the body's two matrix products, a 64 × 64 matrix times a [64, 16384] tile into a zero accumulator, read at
    entry (p, q): the sum over the 64 agents of the matrix's row p against the tile's column q. -/
theorem product_apply (W : FVec Ideal S64x64 .bf16) (x : FVec Ideal S64x16384 .bf16) (p : Fin 64) (q : Fin 16384) :
    FloatOps.matmul dot_S64x64_S64x16384_S64x16384_1_0_0_1_n_n none W x
        (constant (F := Ideal) S64x16384 .f32 0x00000000#32) (ix2 p q)
      = ∑ k : Fin 64, W (ix2 p k) * x (ix2 k q) :=
  (Ideal.matmul_constant_zero_apply dot_S64x64_S64x16384_S64x16384_1_0_0_1_n_n none W x (ix2 p q)).trans
    (Cert.LibPlainDot.sum_plain dot_S64x64_S64x16384_S64x16384_1_0_0_1_n_n rfl rfl rfl rfl rfl rfl W x p q)

/-- Entry (p, q) of the tile the body stores: the two products' entries added, then `tanh`. -/
theorem payload_apply (ht ct : Vec Ideal S64x16384 .f32) (Hb Cb : Vec Ideal S64x64 .bf16) (p : Fin 64) (q : Fin 16384) :
    k0_pay1 (F := Ideal) ht ct Hb Cb (ix2 p q)
      = Ideal.tanh ((∑ k : Fin 64, Hb (ix2 p k) * ht (ix2 k q)) + ∑ k : Fin 64, Cb (ix2 p k) * ct (ix2 k q)) := by
  unfold k0_pay1
  show Ideal.tanh
      (FloatOps.matmul dot_S64x64_S64x16384_S64x16384_1_0_0_1_n_n none (shapeCast S64x64 Hb shapeCasts_S64x64_S64x64)
          (truncf .bf16 ht bitsLt_bf16_f32) (constant (F := Ideal) S64x16384 .f32 0x00000000#32) (ix2 p q)
        + FloatOps.matmul dot_S64x64_S64x16384_S64x16384_1_0_0_1_n_n none (shapeCast S64x64 Cb shapeCasts_S64x64_S64x64)
          (truncf .bf16 ct bitsLt_bf16_f32) (constant (F := Ideal) S64x16384 .f32 0x00000000#32) (ix2 p q)) = _
  refine congrArg Ideal.tanh (congrArg₂ (· + ·) ?_ ?_)
  · refine (product_apply _ _ p q).trans (Finset.sum_congr rfl fun k _ => ?_)
    exact congrArg (· * ht (ix2 k q)) (congrFun (shapeCast_self Hb shapeCasts_S64x64_S64x64) (ix2 p k))
  · refine (product_apply _ _ p q).trans (Finset.sum_congr rfl fun k _ => ?_)
    exact congrArg (· * ct (ix2 k q)) (congrFun (shapeCast_self Cb shapeCasts_S64x64_S64x64) (ix2 p k))

end Cert.KernelIdeal.Tile

end
-- ==== Proof.MixedState.lean ====
/-
  The mixed state of the agents, as one function of the four argument arrays.

  Sixty-four agents each hold a state row of width 524288: the rows of `h` and of `c`.  Two 64 × 64 matrices `H` and
  `C` mix the agents: entry (p, j) of the result is

      tanh ( ∑ₖ H(p, k) · h(k, j)  +  ∑ₖ C(p, k) · c(k, j) ),      k over the 64 agents.

  Column j of the result depends on column j of `h` and of `c` only, and on all of `H` and `C`; this is why the
  columns may be computed in independent tiles.  Everything is read on the extended reals, where the sums and the
  products are the exact ones and `tanh` is the extended-real hyperbolic tangent.
-/
import Idealize.ShloMosaic.PureOps.Ideal
import Idealize.ShloMosaic.Lib.ValueIdx

noncomputable section

open scoped BigOperators

namespace Cert.MixedState

open Idealize.ShloMosaic Idealize.ShloMosaic.ValueIdx

/-- The mixed state at agent `p` and column `j`: both matrix products' entries (p, j) added, then `tanh`. -/
def mixedAt (h c : (⟨2, ![64, 524288]⟩ : Shape).Idx → EReal) (H C : (⟨2, ![64, 64]⟩ : Shape).Idx → EReal)
    (p : Fin 64) (j : Fin 524288) : EReal :=
  Ideal.tanh ((∑ k : Fin 64, H (ix2 p k) * h (ix2 k j)) + ∑ k : Fin 64, C (ix2 p k) * c (ix2 k j))

/-- The whole [64, 524288] array of mixed states, index by index. -/
def mixed (h c : (⟨2, ![64, 524288]⟩ : Shape).Idx → EReal) (H C : (⟨2, ![64, 64]⟩ : Shape).Idx → EReal) :
    (⟨2, ![64, 524288]⟩ : Shape).Idx → EReal :=
  fun i => mixedAt h c H C (i 0) (i 1)

/-- Read at an index given by its coordinates. -/
theorem mixed_ix2 (h c : (⟨2, ![64, 524288]⟩ : Shape).Idx → EReal) (H C : (⟨2, ![64, 64]⟩ : Shape).Idx → EReal)
    (p : Fin 64) (j : Fin 524288) : mixed h c H C (ix2 p j) = mixedAt h c H C p j := rfl

end Cert.MixedState

end
-- ==== Proof.KernelMixed.lean ====
/-
  From tiles to the whole array: the kernel's result is the mixed state.

  The grid has 32 points.  Point t works on columns 16384·t … 16384·t + 16383: it reads that column tile of `h`
  and of `c`, and the whole of the two mixing matrices, and writes that column tile of the result.  The matrices it
  reads are `H` and `C` narrowed to a shorter float format before the grid starts, which on the extended reals is
  `H` and `C` themselves.  So what point t writes back is the tile's payload of tiles of the arguments, and by the
  payload's reading at an entry that is the column tile t of the mixed state.  The 32 column tiles cover the array
  (column j lies in tile j / 16384), so after the run the result array is the mixed state everywhere.
-/
import proofs.«120280_j34995393527975_2_alg».proof.Proof.Gen.KernelIdeal.Value
import proofs.«120280_j34995393527975_2_alg».proof.Proof.TilePayload
import proofs.«120280_j34995393527975_2_alg».proof.Proof.MixedState
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Mixed

open Cert.KernelIdeal Cert.KernelIdeal.Gen Cert.KernelIdeal.Value Idealize.ShloMosaic.ValueIdx Cert.MixedState

variable (m : (ℓ : Loc nD τ sig) → Buf (Elt Ideal) ℓ) (ρ : Dev nD → PrngReg)

theorem zero_offsets : (![0, 0] : Fin 2 → Nat) = fun _ => 0 := funext fun a => by fin_cases a <;> rfl

/-- The mixed state of the four argument arrays as launched. -/
abbrev result (c : Dev nD) : S64x524288.Idx → EReal :=
  mixed (m ((c : Thread nD τ).loc main_arg0)) (m ((c : Thread nD τ).loc main_arg1))
    (m ((c : Thread nD τ).loc main_arg2)) (m ((c : Thread nD τ).loc main_arg3))

/-! ## The two mixing matrices as the grid finds them -/

/-- The first matrix the grid reads is `H` narrowed, which on the extended reals is `H` entry by entry. -/
theorem narrowed_H (c : Dev nD) (x : S64x64.Idx) :
    (V m c main_v0 : S64x64.Idx → EReal) x = (m ((c : Thread nD τ).loc main_arg2) : S64x64.Idx → EReal) x := by
  have e : (V m c main_v0 : S64x64.Idx → EReal)
      = (truncf (F := Ideal) (s := S64x64) (φ := .f32) .bf16 (m ((c : Thread nD τ).loc main_arg2)) bitsLt_bf16_f32
          : S64x64.Idx → EReal) := by
    dsimp only [Gen.V, Gen.hostOps0]; after_results
  rw [e]; rfl

/-- The second matrix the grid reads is `C` narrowed: `C` entry by entry. -/
theorem narrowed_C (c : Dev nD) (x : S64x64.Idx) :
    (V m c main_v1 : S64x64.Idx → EReal) x = (m ((c : Thread nD τ).loc main_arg3) : S64x64.Idx → EReal) x := by
  have e : (V m c main_v1 : S64x64.Idx → EReal)
      = (truncf (F := Ideal) (s := S64x64) (φ := .f32) .bf16 (m ((c : Thread nD τ).loc main_arg3)) bitsLt_bf16_f32
          : S64x64.Idx → EReal) := by
    dsimp only [Gen.V, Gen.hostOps0]; after_results
  rw [e]; rfl

/-! ## Which block each window holds at a point -/

/-- At point t the two matrix windows hold block (0, 0) and the three tiled windows hold block (0, t). -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The first matrix window's block at any point is `H`. -/
theorem block_H (c : Dev nD) (t : Fin cfg0.N) (x : S64x64.Idx) :
    (iblk m c 0 t : Vec Ideal S64x64 .bf16) x = (m ((c : Thread nD τ).loc main_arg2) : S64x64.Idx → EReal) x := by
  obtain ⟨e0, e1, -, -, -, -, -, -, -, -⟩ := block_indices t
  unfold iblk
  rw [View.read_apply]
  show (V m c main_v0 : S64x64.Idx → EReal) _ = _
  rw [narrowed_H]
  refine congrArg _ ?_
  funext a
  apply Fin.ext
  match a with
  | ⟨0, _⟩ => show win0_0.index t (0 : Fin 2) * 64 + 1 * (x 0).val = (x 0).val; rw [e0]; omega
  | ⟨1, _⟩ => show win0_0.index t (1 : Fin 2) * 64 + 1 * (x 1).val = (x 1).val; rw [e1]; omega

/-- The second matrix window's block at any point is `C`. -/
theorem block_C (c : Dev nD) (t : Fin cfg0.N) (x : S64x64.Idx) :
    (iblk m c 1 t : Vec Ideal S64x64 .bf16) x = (m ((c : Thread nD τ).loc main_arg3) : S64x64.Idx → EReal) x := by
  obtain ⟨-, -, e0, e1, -, -, -, -, -, -⟩ := block_indices t
  unfold iblk
  rw [View.read_apply]
  show (V m c main_v1 : S64x64.Idx → EReal) _ = _
  rw [narrowed_C]
  refine congrArg _ ?_
  funext a
  apply Fin.ext
  match a with
  | ⟨0, _⟩ => show win0_1.index t (0 : Fin 2) * 64 + 1 * (x 0).val = (x 0).val; rw [e0]; omega
  | ⟨1, _⟩ => show win0_1.index t (1 : Fin 2) * 64 + 1 * (x 1).val = (x 1).val; rw [e1]; omega

/-- The block of `h` at point t is its column tile t: entry (r, s) of the block is entry (r, 16384·t + s) of `h`. -/
theorem block_h (c : Dev nD) (t : Fin cfg0.N) (x : S64x16384.Idx) (i : S64x524288.Idx)
    (h0 : (i 0).val = (x 0).val) (h1 : (i 1).val = 16384 * t.val + (x 1).val) :
    (iblk m c 2 t : Vec Ideal S64x16384 .f32) x = (m ((c : Thread nD τ).loc main_arg0) : S64x524288.Idx → EReal) i := by
  obtain ⟨-, -, -, -, e0, e1, -, -, -, -⟩ := block_indices t
  unfold iblk
  rw [View.read_apply]
  show V m c main_arg0 _ = _
  rw [V_main_arg0 m c]
  refine congrArg _ ?_
  funext a
  apply Fin.ext
  match a with
  | ⟨0, _⟩ => show win0_2.index t (0 : Fin 2) * 64 + 1 * (x 0).val = (i 0).val; rw [e0, h0]; omega
  | ⟨1, _⟩ => show win0_2.index t (1 : Fin 2) * 16384 + 1 * (x 1).val = (i 1).val; rw [e1, h1]; omega

/-- The block of `c` at point t is its column tile t. -/
theorem block_c (c : Dev nD) (t : Fin cfg0.N) (x : S64x16384.Idx) (i : S64x524288.Idx)
    (h0 : (i 0).val = (x 0).val) (h1 : (i 1).val = 16384 * t.val + (x 1).val) :
    (iblk m c 3 t : Vec Ideal S64x16384 .f32) x = (m ((c : Thread nD τ).loc main_arg1) : S64x524288.Idx → EReal) i := by
  obtain ⟨-, -, -, -, -, -, e0, e1, -, -⟩ := block_indices t
  unfold iblk
  rw [View.read_apply]
  show V m c main_arg1 _ = _
  rw [V_main_arg1 m c]
  refine congrArg _ ?_
  funext a
  apply Fin.ext
  match a with
  | ⟨0, _⟩ => show win0_3.index t (0 : Fin 2) * 64 + 1 * (x 0).val = (i 0).val; rw [e0, h0]; omega
  | ⟨1, _⟩ => show win0_3.index t (1 : Fin 2) * 16384 + 1 * (x 1).val = (i 1).val; rw [e1, h1]; omega

/-! ## What a point writes back -/

/-- The payload of the blocks at point t, at entry y of the tile, is the mixed state at the entry of the array that
    y stands for: same agent, column 16384·t further. -/
theorem tile_is_mixed (c : Dev nD) (t : Fin cfg0.N) (y : S64x16384.Idx) (i : S64x524288.Idx)
    (h0 : (i 0).val = (y 0).val) (h1 : (i 1).val = 16384 * t.val + (y 1).val) :
    k0_pay1 (F := Ideal) (iblk m c 2 t) (iblk m c 3 t) (iblk m c 0 t) (iblk m c 1 t) y = result m c i := by
  obtain ⟨p, q, rfl⟩ : ∃ (p : Fin 64) (q : Fin 16384), y = ix2 p q := ⟨y 0, y 1, eq_ix2 y⟩
  obtain ⟨p', j, rfl⟩ : ∃ (p' : Fin 64) (j : Fin 524288), i = ix2 p' j := ⟨i 0, i 1, eq_ix2 i⟩
  obtain rfl : p' = p := Fin.ext h0
  have hj : j.val = 16384 * t.val + q.val := h1
  refine (Tile.payload_apply (iblk m c 2 t) (iblk m c 3 t) (iblk m c 0 t) (iblk m c 1 t) p' q).trans ?_
  show _ = mixedAt _ _ _ _ p' j
  unfold mixedAt
  refine congrArg Ideal.tanh (congrArg₂ (· + ·) (Finset.sum_congr rfl fun k _ => ?_) (Finset.sum_congr rfl fun k _ => ?_))
  · rw [block_H m c t (ix2 p' k), block_h m c t (ix2 k q) (ix2 k j) rfl hj]
  · rw [block_C m c t (ix2 p' k), block_c m c t (ix2 k q) (ix2 k j) rfl hj]

/-- What point t writes back is column tile t of the mixed state. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S64x16384) zero_offsets, View.ld_unit_zero (S := S64x64) zero_offsets]
  obtain ⟨-, -, -, -, -, -, -, -, e0, e1⟩ := block_indices t
  funext y
  show k0_pay1 (F := Ideal) (iblk m c 2 t) (iblk m c 3 t) (iblk m c 0 t) (iblk m c 1 t) y
    = result m c (((cfg0.win 4).blk t).view.emb y)
  refine tile_is_mixed m c t y (((cfg0.win 4).blk t).view.emb y) ?_ ?_
  · show win0_4.index t (0 : Fin 2) * 64 + 1 * (y 0).val = (y 0).val; rw [e0]; omega
  · show win0_4.index t (1 : Fin 2) * 16384 + 1 * (y 1).val = 16384 * t.val + (y 1).val; rw [e1]; omega

/-! ## The tiles cover the array -/

/-- An index lies in point t's block iff each coordinate lies in the block's range on its axis. -/
theorem mem_block (t : Fin cfg0.N) (i : S64x524288.Idx) :
    i ∈ ((cfg0.win 4).blk t).view.set ↔ ∀ a : Fin 2, win0_4.index t a * S64x16384.size a ≤ (i a).val
      ∧ (i a).val < win0_4.index t a * S64x16384.size a + S64x16384.size a := by
  show i ∈ ((View.whole main_v2).slice (win0_4.rect t)).set ↔ _
  rw [View.set_slice_whole, Rect.mem_set_unit]
  exact Iff.rfl

/-- Column j lies in the tile of point j / 16384, and every point writes its tile back. -/
theorem tiles_cover (i : S64x524288.Idx) :
    ∃ t : Fin cfg0.N, (cfg0.win 4).flush t = true ∧ i ∈ ((cfg0.win 4).blk t).view.set := by
  have hi0 : (i 0).val < 64 := (i 0).isLt
  have hi1 : (i 1).val < 524288 := (i 1).isLt
  have hlt : (i 1).val / 16384 < cfg0.N := by rw [show cfg0.N = 32 from N_0]; omega
  obtain ⟨-, -, -, -, -, -, -, -, e0, e1⟩ := block_indices ⟨(i 1).val / 16384, hlt⟩
  refine ⟨⟨(i 1).val / 16384, hlt⟩, flush0_4 _, ?_⟩
  rw [mem_block]
  intro a
  match a with
  | ⟨0, _⟩ =>
    show win0_4.index ⟨(i 1).val / 16384, hlt⟩ (0 : Fin 2) * 64 ≤ (i 0).val
      ∧ (i 0).val < win0_4.index ⟨(i 1).val / 16384, hlt⟩ (0 : Fin 2) * 64 + 64
    rw [e0]; omega
  | ⟨1, _⟩ =>
    show win0_4.index ⟨(i 1).val / 16384, hlt⟩ (1 : Fin 2) * 16384 ≤ (i 1).val
      ∧ (i 1).val < win0_4.index ⟨(i 1).val / 16384, hlt⟩ (1 : Fin 2) * 16384 + 16384
    rw [e1]
    show (i 1).val / 16384 * 16384 ≤ (i 1).val ∧ (i 1).val < (i 1).val / 16384 * 16384 + 16384
    omega

/-! ## The array after the run -/

/-- After the run the result array is the mixed state of the arguments. -/
theorem final (c : Dev nD) : (dats m 0 c).arrAt 4 cfg0.N = result m c :=
  (dats m 0 c).arrAt_eq_of_cover 4 (result m c) (fun t _ => flushed_eq m c t) tiles_cover

/-- Every run ends with the result array at the mixed state of the argument arrays, and these unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Mixed

end
-- ==== Proof.ReferenceMixed.lean ====
/-
  The reference computes the mixed state.

  The reference forms the two matrix products H · h and C · c over the whole arrays, adds them and applies `tanh`.
  Read at an index (p, j), each product is the sum over the 64 agents of the matrix's row p against the array's
  column j, so the result is the mixed state of `MixedState` there: the same two sums, added in the same order,
  under the same `tanh`.
-/
import proofs.«120280_j34995393527975_2_alg».proof.Proof.Gen.ReferenceIdeal.Read
import proofs.«120280_j34995393527975_2_alg».proof.Proof.MixedState

noncomputable section

open scoped BigOperators

namespace Cert.ReferenceIdeal.Mixed

open Cert.ReferenceIdeal Cert.ReferenceIdeal.Read Idealize.ShloMosaic Idealize.ShloMosaic.ValueIdx

/-- The reference's last stage, as a function of the four argument arrays, is the mixed state. -/
theorem reference_eq (h c : (⟨S64x524288, .f32⟩ : BufTy).Contents (Elt Ideal)) (H C : (⟨S64x64, .f32⟩ : BufTy).Contents (Elt Ideal)) :
    val_main_v3 (F := Ideal) h c H C = Cert.MixedState.mixed h c H C := by
  funext i
  obtain ⟨p, j, rfl⟩ : ∃ (p : Fin 64) (j : Fin 524288), i = ix2 p j := ⟨i 0, i 1, eq_ix2 i⟩
  have el0 : ∀ k : Fin 64, lidx_main_v0 (ix2 p j) k = ix2 p k := fun k =>
    funext fun a => Fin.ext (by match a with | ⟨0, _⟩ => rfl | ⟨1, _⟩ => rfl)
  have er0 : ∀ k : Fin 64, ridx_main_v0 (ix2 p j) k = ix2 k j := fun k =>
    funext fun a => Fin.ext (by match a with | ⟨0, _⟩ => rfl | ⟨1, _⟩ => rfl)
  have el1 : ∀ k : Fin 64, lidx_main_v1 (ix2 p j) k = ix2 p k := fun k =>
    funext fun a => Fin.ext (by match a with | ⟨0, _⟩ => rfl | ⟨1, _⟩ => rfl)
  have er1 : ∀ k : Fin 64, ridx_main_v1 (ix2 p j) k = ix2 k j := fun k =>
    funext fun a => Fin.ext (by match a with | ⟨0, _⟩ => rfl | ⟨1, _⟩ => rfl)
  rw [val_main_v3_apply, val_main_v2_apply, val_main_v0_apply, val_main_v1_apply]
  simp only [el0, er0, el1, er1]
  rfl

end Cert.ReferenceIdeal.Mixed

end
-- ==== Proof.lean ====
/- The kernel and its reference compute the same mixed state of the agents.

   Both programs return `tanh (H · h + C · c)` twice, where `h` and `c` are [64, 524288] arrays of the agents' state rows
   and `H`, `C` are 64 × 64 mixing matrices.  The reference forms the two products over the whole arrays.  The kernel
   first narrows `H` and `C` to a shorter float format, then walks 32 column tiles of width 16384: at each tile it
   narrows the tile of `h` and of `c`, multiplies each by its matrix into a zero accumulator, adds, applies `tanh`
   and writes the tile of the result.  On the extended reals narrowing is the identity and a product into a zero
   accumulator is the bare sum over the 64 agents, so entry (p, j) of either result is

       tanh ( ∑ₖ H(p, k) · h(k, j)  +  ∑ₖ C(p, k) · c(k, j) ):

   the same two sums over the same index set, added in the same order.  No law of arithmetic beyond this reading is
   used, so the finiteness of the inputs is never needed.  The tiles cover the array because column j lies in tile
   j / 16384.  The idealized kernel is the kernel's own text read on the extended reals (no rewrite was made), so
   nothing is owed for that step. -/
import proofs.«120280_j34995393527975_2_alg».proof.Defs
import proofs.«120280_j34995393527975_2_alg».proof.Proof.Gen.Kernel
import proofs.«120280_j34995393527975_2_alg».proof.Proof.Gen.Kernel.Skeleton
import proofs.«120280_j34995393527975_2_alg».proof.Proof.Gen.Kernel.Launch
import proofs.«120280_j34995393527975_2_alg».proof.Proof.Gen.Kernel.Points
import proofs.«120280_j34995393527975_2_alg».proof.Proof.Gen.Kernel.Frame
import proofs.«120280_j34995393527975_2_alg».proof.Proof.Gen.KernelIdeal
import proofs.«120280_j34995393527975_2_alg».proof.Proof.Gen.KernelIdeal.Skeleton
import proofs.«120280_j34995393527975_2_alg».proof.Proof.Gen.KernelIdeal.Launch
import proofs.«120280_j34995393527975_2_alg».proof.Proof.Gen.KernelIdeal.Points
import proofs.«120280_j34995393527975_2_alg».proof.Proof.Gen.KernelIdeal.Frame
import proofs.«120280_j34995393527975_2_alg».proof.Proof.Gen.ReferenceIdeal
import proofs.«120280_j34995393527975_2_alg».proof.Proof.Gen.Pre_finite_inputs
import proofs.«120280_j34995393527975_2_alg».proof.Proof.Gen.KernelIdeal.Value
import proofs.«120280_j34995393527975_2_alg».proof.Proof.Gen.ReferenceIdeal.Run
import proofs.«120280_j34995393527975_2_alg».proof.Proof.Gen.ReferenceIdeal.Read
import Idealize.ShloMosaic.Adequacy
import Idealize.ShloMosaic.Init
import proofs.«120280_j34995393527975_2_alg».proof.Proof.KernelMixed
import proofs.«120280_j34995393527975_2_alg».proof.Proof.ReferenceMixed

noncomputable section

namespace Cert.Proof

open Idealize.ShloMosaic Idealize.SL.Sem

/-- Every run of the kernel as printed ends, faults nowhere and leaves its arguments as they were. -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The reference's run ends with its arguments as they were: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the four arguments, both programs end with both results at the mixed state of the
    arguments: the kernel's tiles assemble to it, and the reference's two whole products, added under `tanh`, are it. -/
theorem algebraic : Cert.algebraic_KernelIdeal_ReferenceIdeal := by
  intro m ρ m' ρ' _ hagree
  refine ⟨fun c => Cert.KernelIdeal.Mixed.result m c, fun c => Cert.KernelIdeal.Mixed.result m c, ?_, ?_⟩
  · exact (θ_run Cert.KernelIdeal.defs _ _).mono (fun _ h c => ⟨(h c).1, (h c).1, (h c).2⟩)
      (Cert.KernelIdeal.Mixed.run m ρ)
  · refine (θ_run Cert.ReferenceIdeal.defs _ _).mono (fun _ h c => ?_)
      (Cert.ReferenceIdeal.Value.run (F := Ideal) m' ρ')
    refine ⟨(h c).1.trans ?_, (h c).2.1.trans ?_, (h c).2.2⟩ <;>
    · rw [Cert.ReferenceIdeal.Read.val_main_v3_eq, Cert.ReferenceIdeal.Mixed.reference_eq,
        (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
